-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S64x1024 : Shape := ⟨2, ![64, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S1024 .f32) (main_arg5 : FVec F S64x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  main_v28

def fn {F : FTy → Type} [FloatOps F] (main_arg0 : FVec F S8x4096x1024 .f32) (main_arg1 : FVec F S1024x1024 .f32) (main_arg2 : FVec F S1024x1024 .f32) (main_arg3 : FVec F S1024 .f32) (main_arg4 : FVec F S1024 .f32) (main_arg5 : FVec F S64x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S64x1024 : Shape := ⟨2, ![64, 1024]⟩
abbrev S32768x1024 : Shape := ⟨2, ![32768, 1024]⟩
abbrev S9x1024 : Shape := ⟨2, ![9, 1024]⟩
abbrev S_ : Shape := ⟨0, ![]⟩
abbrev S9 : Shape := ⟨1, ![9]⟩
abbrev S9x1 : Shape := ⟨2, ![9, 1]⟩
abbrev S1024x128 : Shape := ⟨2, ![1024, 128]⟩
abbrev S1024x9 : Shape := ⟨2, ![1024, 9]⟩
abbrev S1 : Shape := ⟨1, ![1]⟩
abbrev S1x1024 : Shape := ⟨2, ![1, 1024]⟩
abbrev S32768x128 : Shape := ⟨2, ![32768, 128]⟩
abbrev S1024x1 : Shape := ⟨2, ![1024, 1]⟩
abbrev S32768x9 : Shape := ⟨2, ![32768, 9]⟩
abbrev S8x4096x9 : Shape := ⟨3, ![8, 4096, 9]⟩

abbrev nBuf : Space → Nat
  | .hbm => 35
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S64x1024, .f32⟩
  | .hbm, ⟨6, _⟩ => ⟨S32768x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S9x1024, .f32⟩
  | .hbm, ⟨11, _⟩ => ⟨S9x1024, .f32⟩
  | .hbm, ⟨12, _⟩ => ⟨S_, .f32⟩
  | .hbm, ⟨13, _⟩ => ⟨S9, .f32⟩
  | .hbm, ⟨14, _⟩ => ⟨S9x1, .f32⟩
  | .hbm, ⟨15, _⟩ => ⟨S9x1, .f32⟩
  | .hbm, ⟨16, _⟩ => ⟨S_, .f32⟩
  | .hbm, ⟨17, _⟩ => ⟨S9x1, .f32⟩
  | .hbm, ⟨18, _⟩ => ⟨S9x1, .f32⟩
  | .hbm, ⟨19, _⟩ => ⟨S9x1024, .f32⟩
  | .hbm, ⟨20, _⟩ => ⟨S9x1024, .f32⟩
  | .hbm, ⟨21, _⟩ => ⟨S_, .bf16⟩
  | .hbm, ⟨22, _⟩ => ⟨S1024x128, .bf16⟩
  | .hbm, ⟨23, _⟩ => ⟨S1024x9, .f32⟩
  | .hbm, ⟨24, _⟩ => ⟨S1024x9, .bf16⟩
  | .hbm, ⟨25, _⟩ => ⟨S_, .i32⟩
  | .hbm, ⟨26, _⟩ => ⟨S1, .i32⟩
  | .hbm, ⟨27, _⟩ => ⟨S1024x128, .bf16⟩
  | .hbm, ⟨28, _⟩ => ⟨S1x1024, .f32⟩
  | .hbm, ⟨29, _⟩ => ⟨S1x1024, .f32⟩
  | .hbm, ⟨30, _⟩ => ⟨S32768x1024, .f32⟩
  | .hbm, ⟨31, _⟩ => ⟨S32768x128, .f32⟩
  | .hbm, ⟨32, _⟩ => ⟨S8x4096x1024, .f32⟩
  | .hbm, ⟨33, _⟩ => ⟨S32768x9, .f32⟩
  | .hbm, ⟨34, _⟩ => ⟨S8x4096x9, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  transposes_S1024x1024_S1024x1024_1_0 : S1024x1024.Transposes [1, 0] S1024x1024
  bitsLt_bf16_f32 : FTy.bits .bf16 < FTy.bits .f32
  slices_S64x1024_S9x1024_0_0 : S64x1024.Slices ![0, 0] S9x1024
  reducesTo_S9x1024_S9_d1 : S9x1024.ReducesTo [1] S9
  h_S_ : 0 < S_.numel
  bcast_S9_S9x1_0 : S9.BroadcastsInDim S9x1 (![0] : Fin 1 → Fin S9x1.rank)
  bcast_S_S9x1 : S_.BroadcastsInDim S9x1 (![] : Fin 0 → Fin S9x1.rank)
  bcast_S9x1_S9x1024_0_1 : S9x1.BroadcastsInDim S9x1024 (![0, 1] : Fin 2 → Fin S9x1024.rank)
  bcast_S_S1024x128 : S_.BroadcastsInDim S1024x128 (![] : Fin 0 → Fin S1024x128.rank)
  transposes_S9x1024_S1024x9_1_0 : S9x1024.Transposes [1, 0] S1024x9
  bcast_S_S1 : S_.BroadcastsInDim S1 (![] : Fin 0 → Fin S1.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S32768x1024_S8x4096x1024 : S32768x1024.ShapeCasts S8x4096x1024
  slices_S32768x128_S32768x9_0_0 : S32768x128.Slices ![0, 0] S32768x9
  shapeCasts_S32768x9_S8x4096x9 : S32768x9.ShapeCasts S8x4096x9
  scatter_S1024x128_S1_S1024x9_01_n_1_0_wf : ScatterDims.WF S1024x128 S1 S1024x9 [0, 1] [] [1] 0
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S32768x128.size a
  hwx0_6 : ∀ i : grid0.Coords, EltTy.bits .f32 = 32 ∨ (Rect.block (s := S32768x128) S1024x128.size (cc0_transform_6 i) (hinb0_6 i)).WholeWords (EltTy.packing .f32)

variable [Facts₀]

def scatter_S1024x128_S1_S1024x9_01_n_1_0 : ScatterDims S1024x128 S1 S1024x9 where
  updateWindowDims := [0, 1]
  insertedWindowDims := []
  scatterDimsToOperandDims := [1]
  indexVectorDim := 0
  wf := scatter_S1024x128_S1_S1024x9_01_n_1_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S64x1024 : Shape := ⟨2, ![64, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S9x1024 : Shape := ⟨2, ![9, 1024]⟩
abbrev S9 : Shape := ⟨1, ![9]⟩
abbrev S9x1 : Shape := ⟨2, ![9, 1]⟩
abbrev S8x4096x9 : Shape := ⟨3, ![8, 4096, 9]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S64x1024, .f32⟩
  | .hbm, ⟨6, _⟩ => ⟨S1024x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S9x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S9x1024, .f32⟩
  | .hbm, ⟨49, _⟩ => ⟨S_, .f32⟩
  | .hbm, ⟨50, _⟩ => ⟨S9, .f32⟩
  | .hbm, ⟨51, _⟩ => ⟨S9x1, .f32⟩
  | .hbm, ⟨52, _⟩ => ⟨S9x1, .f32⟩
  | .hbm, ⟨53, _⟩ => ⟨S_, .f32⟩
  | .hbm, ⟨54, _⟩ => ⟨S9x1, .f32⟩
  | .hbm, ⟨55, _⟩ => ⟨S9x1, .f32⟩
  | .hbm, ⟨56, _⟩ => ⟨S9x1024, .f32⟩
  | .hbm, ⟨57, _⟩ => ⟨S9x1024, .f32⟩
  | .hbm, ⟨58, _⟩ => ⟨S8x4096x9, .f32⟩
  | .hbm, ⟨59, _⟩ => ⟨S_, .f32⟩
  | .hbm, ⟨60, _⟩ => ⟨S8x4096x9, .f32⟩
  | .hbm, ⟨61, _⟩ => ⟨S8x4096x9, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  slices_S64x1024_S9x1024_0_0 : S64x1024.Slices ![0, 0] S9x1024
  reducesTo_S9x1024_S9_d1 : S9x1024.ReducesTo [1] S9
  bcast_S9_S9x1_0 : S9.BroadcastsInDim S9x1 (![0] : Fin 1 → Fin S9x1.rank)
  bcast_S_S9x1 : S_.BroadcastsInDim S9x1 (![] : Fin 0 → Fin S9x1.rank)
  bcast_S9x1_S9x1024_0_1 : S9x1.BroadcastsInDim S9x1024 (![0, 1] : Fin 2 → Fin S9x1024.rank)
  bcast_S_S8x4096x9 : S_.BroadcastsInDim S8x4096x9 (![] : Fin 0 → Fin S8x4096x9.rank)
  dot_S8x4096x1024_S1024x1024_S8x4096x1024_2_1_01_0_n_n_wf : DotDims.WF S8x4096x1024 S1024x1024 S8x4096x1024 [2] [1] [0, 1] [0] [] []
  dot_S8x4096x1024_S9x1024_S8x4096x9_2_1_01_0_n_n_wf : DotDims.WF S8x4096x1024 S9x1024 S8x4096x9 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S9x1024_S8x4096x9_2_1_01_0_n_n : DotDims S8x4096x1024 S9x1024 S8x4096x9 where
  lhsContracting := [2]
  rhsContracting := [1]
  lhsNonContracting := [0, 1]
  rhsNonContracting := [0]
  lhsBatch := []
  rhsBatch := []
  wf := dot_S8x4096x1024_S9x1024_S8x4096x9_2_1_01_0_n_n_wf

class Facts : Prop extends Facts₀ where

variable [Facts]
-- ==== Proof.Pieces.lean ====
/-
  What one grid point leaves in its two output blocks, as values of the five input blocks it is called with.
  The body stores the normalized rows into the first output block, reads that block back, and computes the second
  output block from what it read: so the second block is a function of the first block's value, which is itself a
  function of the input blocks. Both are read off the body's covering stores: a store through the whole block leaves
  its operand, and a load of the whole block after such a store reads that operand.
-/
import proofs.«175506_j69011534512402_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
namespace Cert.KernelIdeal.Hand

open Cert.KernelIdeal Cert.KernelIdeal.Gen

variable {F : FTy → Type} [FloatOps F]

/-- The zero offsets of a rank-2 block. -/
theorem hz : (![0, 0] : Fin 2 → Nat) = fun _ => 0 := funext fun a => by fin_cases a <;> rfl

/-- The first output block (the normalized rows) after the body: the layer-norm of the product of the row block
    with the masked, transposed weight, as one term of the four input blocks it reads. -/
theorem out5_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1024x128 .f32) (harg7 : arg7.IsWhole)
    (x0 : Vec F S1024x1024 .f32) (x1 : Vec F S1024x1024 .bf16) (x2 : Vec F S1x1024 .f32) (x3 : Vec F S1x1024 .f32) (x4 : Vec F S1024x128 .bf16) :
    out0_A_5 c i arg1 harg1 arg2 harg2 arg3 harg3 arg4 harg4 arg5 harg5 arg6 harg6 arg7 harg7 x0 x1 x2 x3 x4 = k0_pay2 x0 x1 x2 x3 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero (S := S1024x1024) hz]
  simp only [View.readAt_eq_ld, harg1.read_unread, harg2.read_unread, harg3.read_unread, harg4.read_unread,
    View.ld_unit_zero (S := S1024x1024) hz, View.ld_unit_zero (S := S1x1024) hz]

/-- The second output block (the scaled cosine similarities) after the body: computed from the first output block
    read back — the block just stored — and the prototype table's block. -/
theorem out6_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1024x1024 .f32) (harg6 : arg6.IsWhole) (arg7 : Memref sig .tc .vmem S1024x128 .f32) (harg7 : arg7.IsWhole)
    (x0 : Vec F S1024x1024 .f32) (x1 : Vec F S1024x1024 .bf16) (x2 : Vec F S1x1024 .f32) (x3 : Vec F S1x1024 .f32) (x4 : Vec F S1024x128 .bf16) :
    out0_A_6 c i arg1 harg1 arg2 harg2 arg3 harg3 arg4 harg4 arg5 harg5 arg6 harg6 arg7 harg7 x0 x1 x2 x3 x4
      = k0_pay1 (k0_pay3 (k0_pay2 x0 x1 x2 x3)) (k0_pay4 (k0_pay2 x0 x1 x2 x3)) x4 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  rw [View.canon_unit_zero (S := S1024x128) hz, View.readCov_unit_zero (S := S1024x1024) _ hz]
  simp only [View.readAt_eq_ld, harg1.read_unread, harg2.read_unread, harg3.read_unread, harg4.read_unread,
    harg5.read_unread, View.ld_unit_zero (S := S1024x1024) hz, View.ld_unit_zero (S := S1x1024) hz,
    View.ld_unit_zero (S := S1024x128) hz]

end Cert.KernelIdeal.Hand

end
-- ==== Proof.RowSpec.lean ====
/-
  The mathematics of one row, over the extended reals.

  Both programs treat every one of the 32768 rows of the activations alone. For a row x of 1024 entries:
    * z = the product of x with the masked weight (formed by the caller and passed in here as a row);
    * the layer norm of z: with mean μ = (Σ z) / 1024 and variance v = (Σ (z - μ)²) / 1024, the entry at o is
      (z o - μ) · rsqrt (v + ε₁) · γ o + β o;
    * the unit vector of a row y: y d / max (sqrt (Σ y²)) ε₂;
    * the logit against a prototype row L: (Σ_d unit y d · L d) / τ.
  The constants 1024, ε₁, ε₂, τ are the f32 words both programs carry, read as the extended reals they encode; they
  are never evaluated. Division, square root and reciprocal square root are the extended reals' total ones.
-/
import Idealize.ShloMosaic.PureOps.Ideal

noncomputable section

namespace Cert.RowSpec

open Idealize.ShloMosaic

/-- The mean of a row of 1024 entries: its sum divided by the word for 1024. -/
def rowMean (z : Fin 1024 → EReal) : EReal := Ideal.div (∑ o : Fin 1024, z o) (Ideal.ofBits .f32 0x44800000#32)

/-- The variance of a row: the mean of the squared deviations from the row's mean. -/
def rowVar (z : Fin 1024 → EReal) : EReal :=
  Ideal.div (∑ o : Fin 1024, (z o - rowMean z) * (z o - rowMean z)) (Ideal.ofBits .f32 0x44800000#32)

/-- The layer norm of a row with scale γ and shift β, entry by entry. -/
def layerNorm (z γ β : Fin 1024 → EReal) (o : Fin 1024) : EReal :=
  (z o - rowMean z) * Ideal.rsqrt (rowVar z + Ideal.ofBits .f32 0x3727C5AC#32) * γ o + β o

/-- A row divided by its Euclidean norm, the norm kept away from zero by the word for 1e-12. -/
def unit (y : Fin 1024 → EReal) (d : Fin 1024) : EReal :=
  Ideal.div (y d) (max (Ideal.sqrt (∑ e : Fin 1024, y e * y e)) (Ideal.ofBits .f32 0x2B8CBCCC#32))

/-- The scaled cosine similarity of a row y and a prototype direction L (already a unit vector): the inner product of
    y's unit vector with L, divided by the word for 0.07. -/
def logit (y L : Fin 1024 → EReal) : EReal :=
  Ideal.div (∑ d : Fin 1024, unit y d * L d) (Ideal.ofBits .f32 0x3D8F5C29#32)

end Cert.RowSpec

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's two stored values read entry by entry, over the extended reals.

  Entry (p, o) of the first stored block depends on row p of the activation block only: it is the layer norm (RowSpec)
  of that row's product with the weight block, with the scale and shift rows. Entry (p, k) of the second stored block
  is the scaled cosine similarity (RowSpec.logit) of row p of the first block with column k of the prototype block.
  The non-pointwise steps are: a block product into a zero accumulator (a sum over the contracted axis), a row sum kept
  as a column, a column broadcast along its rows, and a single row broadcast down the block.
-/
import proofs.«175506_j69011534512402_2_alg».proof.Proof.Gen.KernelIdeal.Skeleton
import proofs.«175506_j69011534512402_2_alg».proof.Proof.RowSpec
import proofs.«175506_j69011534512402_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx Cert.RowSpec
namespace Cert.KernelIdeal.Hand

open Cert.KernelIdeal Cert.KernelIdeal.Gen

theorem mm1_lhs0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm1_rhs1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, entry by entry: the sum over the 1024 contracted positions of the
    left operand's row entry times the right operand's column entry. -/
theorem mm1_apply (a : FVec Ideal S1024x1024 .bf16) (b : FVec Ideal S1024x1024 .bf16) (p : Fin 1024) (o : Fin 1024) :
    matmul dot_S1024x1024_S1024x1024_S1024x1024_1_0_0_1_n_n none a b (constant S1024x1024 .f32 0x00000000#32) (ix2 p o)
      = ∑ k : Fin 1024, a (ix2 p k) * b (ix2 k o) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p o) ((contrEquiv1 dot_S1024x1024_S1024x1024_S1024x1024_1_0_0_1_n_n 1024 rfl rfl).symm k) = ix2 p k := funext fun x => Fin.ext (by
    match x with
    | ⟨0, _⟩ => exact mm1_lhs0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p o) ((contrEquiv1 dot_S1024x1024_S1024x1024_S1024x1024_1_0_0_1_n_n 1024 rfl rfl).symm k) = ix2 k o := funext fun x => Fin.ext (by
    match x with
    | ⟨0, _⟩ => exact (dot_S1024x1024_S1024x1024_S1024x1024_1_0_0_1_n_n.rhsIdx_val_of_single rfl _ _).trans hk
    | ⟨1, _⟩ => exact mm1_rhs1 _ _)
  rw [el, er]

theorem mm2_lhs0 (j : S1024x128.Idx) (q : dot_S1024x1024_S1024x128_S1024x128_1_0_0_1_n_n.contr.Idx) : (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem mm2_rhs1 (j : S1024x128.Idx) (q : dot_S1024x1024_S1024x128_S1024x128_1_0_0_1_n_n.contr.Idx) : (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The block product into a zero accumulator, entry by entry: the sum over the 1024 contracted positions of the
    left operand's row entry times the right operand's column entry. -/
theorem mm2_apply (a : FVec Ideal S1024x1024 .bf16) (b : FVec Ideal S1024x128 .bf16) (p : Fin 1024) (o : Fin 128) :
    matmul dot_S1024x1024_S1024x128_S1024x128_1_0_0_1_n_n none a b (constant S1024x128 .f32 0x00000000#32) (ix2 p o)
      = ∑ k : Fin 1024, a (ix2 p k) * b (ix2 k o) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p o) ((contrEquiv1 dot_S1024x1024_S1024x128_S1024x128_1_0_0_1_n_n 1024 rfl rfl).symm k) = ix2 p k := funext fun x => Fin.ext (by
    match x with
    | ⟨0, _⟩ => exact mm2_lhs0 _ _
    | ⟨1, _⟩ => exact (dot_S1024x1024_S1024x128_S1024x128_1_0_0_1_n_n.lhsIdx_val_of_single rfl _ _).trans hk)
  have er : dot_S1024x1024_S1024x128_S1024x128_1_0_0_1_n_n.rhsIdx (ix2 p o) ((contrEquiv1 dot_S1024x1024_S1024x128_S1024x128_1_0_0_1_n_n 1024 rfl rfl).symm k) = ix2 k o := funext fun x => Fin.ext (by
    match x with
    | ⟨0, _⟩ => exact (dot_S1024x1024_S1024x128_S1024x128_1_0_0_1_n_n.rhsIdx_val_of_single rfl _ _).trans hk
    | ⟨1, _⟩ => exact mm2_rhs1 _ _)
  rw [el, er]

/-- A row sum kept as a column: entry (p, ·) of the [1024, 1] column is the sum of row p. -/
theorem rowSum_col_apply (v : FVec Ideal S1024x1024 .f32) (hφ : FTy.f32 = FTy.f32 ∨ FTy.f32 = FTy.bf16)
    (hacc : (0x00000000#32 : BitVec 32) = 0x00000000#32) (p : Fin 1024) (u : Fin 1) :
    shapeCast S1024x1 (multiReduction .add [1] S1024 v 0x00000000#32 reduces_S1024x1024_S1024 hφ hacc)
        shapeCasts_S1024_S1024x1 (ix2 p u)
      = ∑ k : Fin 1024, v (ix2 p k) := by
  refine (Cert.LibColumn.shapeCast_a_a1_apply _ shapeCasts_S1024_S1024x1 p u).trans ?_
  refine (Ideal.multiReduction_add_single v 0x00000000#32 reduces_S1024x1024_S1024 hφ hacc (ix1 p)).trans ?_
  exact Finset.sum_congr rfl fun k _ => congrArg v (funext fun a => Fin.ext (by
    match a with
    | ⟨0, _⟩ => rfl
    | ⟨1, _⟩ => rfl))

/-- THE FIRST STORED BLOCK at (p, o): the layer norm of row p's product with the weight block. -/
theorem pay2_apply (v0 : Vec Ideal S1024x1024 .f32) (v3 : Vec Ideal S1024x1024 .bf16) (v17 v19 : Vec Ideal S1x1024 .f32)
    (p o : Fin 1024) :
    k0_pay2 (F := Ideal) v0 v3 v17 v19 (ix2 p o)
      = layerNorm (fun o' => ∑ k : Fin 1024, v0 (ix2 p k) * v3 (ix2 k o'))
          (fun o' => v17 (ix2 (0 : Fin 1) o')) (fun o' => v19 (ix2 (0 : Fin 1) o')) o := by
  unfold k0_pay2
  repeat (first
    | rw [rowSum_col_apply]
    | simp only [shapeCast_self, addf_apply, mulf_apply, subf_apply, divf_apply, broadcast_apply, truncf_apply,
        broadcastTo_1b_ab_apply, Cert.LibColumn.broadcastTo_a1_ab_apply, mm1_apply, rsqrt, Ideal.rsqrt_def,
        Ideal.ofBits_def])
  simp only [layerNorm, rowMean, rowVar]

/-- The first block read back, and the column of its rows' Euclidean norms. -/
theorem pay3_eq (v33 : Vec Ideal S1024x1024 .f32) : k0_pay3 (F := Ideal) v33 = v33 := by
  unfold k0_pay3
  exact shapeCast_self _ _

theorem pay4_apply (v33 : Vec Ideal S1024x1024 .f32) (p : Fin 1024) (u : Fin 1) :
    k0_pay4 (F := Ideal) v33 (ix2 p u) = Ideal.sqrt (∑ e : Fin 1024, v33 (ix2 p e) * v33 (ix2 p e)) := by
  unfold k0_pay4
  simp only [pay3_eq, sqrt, Ideal.sqrt_def]
  rw [rowSum_col_apply]
  simp only [mulf_apply]

/-- THE SECOND STORED BLOCK at (p, k), computed from the first block y read back: the scaled cosine similarity of row p
    of y with column k of the prototype block. -/
theorem pay1_apply (y : Vec Ideal S1024x1024 .f32) (x4 : Vec Ideal S1024x128 .bf16) (p : Fin 1024) (k : Fin 128) :
    k0_pay1 (F := Ideal) (k0_pay3 y) (k0_pay4 y) x4 (ix2 p k)
      = logit (fun d => y (ix2 p d)) (fun d => x4 (ix2 d k)) := by
  unfold k0_pay1
  simp only [pay3_eq, shapeCast_self, divf_apply, broadcast_apply, truncf_apply, maximumf_apply,
    Cert.LibColumn.broadcastTo_a1_ab_apply, mm2_apply, pay4_apply, Ideal.ofBits_def, logit, unit]

end Cert.KernelIdeal.Hand

end
-- ==== Proof.Arrays.lean ====
/-
  From blocks to arrays. Grid point t of the 32 works on rows 1024·t … 1024·t + 1023: its activation block and both
  output blocks sit at block row t, every other staged array is one block that never moves. So what point t writes back
  is block t of ONE function of the staged arrays — row r of the first output array is the layer norm of row r's
  product with the weight block, entry (r, k) of the second the scaled cosine similarity of that normalized row with
  column k of the prototype table — and since the 32 blocks tile both output arrays, the arrays end holding exactly
  those functions.
-/
import proofs.«175506_j69011534512402_2_alg».proof.Proof.Gen.KernelIdeal.Frame
import proofs.«175506_j69011534512402_2_alg».proof.Proof.Pieces
import proofs.«175506_j69011534512402_2_alg».proof.Proof.Payload
import proofs.«175506_j69011534512402_2_alg».proof.Proof.RowSpec
import Idealize.ShloMosaic.Lib.Pipeline.Value
import Idealize.ShloMosaic.Lib.ValueIdx

noncomputable section

open Idealize.ShloMosaic Idealize.ShloMosaic.TcCoe Idealize.SL.Sem
open Idealize.ShloMosaic.ValueIdx Cert.RowSpec
open Idealize.ShloMosaic.Pipeline (Dat)
namespace Cert.KernelIdeal.Hand

open Cert.KernelIdeal Cert.KernelIdeal.Gen

/-- Row r of the normalized activations, from the staged arrays. -/
def znK (A0 : S32768x1024.Idx → EReal) (A1 : S1024x1024.Idx → EReal) (A2 A3 : S1x1024.Idx → EReal) (r : Fin 32768) (o : Fin 1024) : EReal :=
  layerNorm (fun o' => ∑ k : Fin 1024, A0 (ix2 r k) * A1 (ix2 k o')) (fun o' => A2 (ix2 (0 : Fin 1) o'))
    (fun o' => A3 (ix2 (0 : Fin 1) o')) o

/-- Entry (r, k) of the padded logits, from the staged arrays. -/
def lgK (A0 : S32768x1024.Idx → EReal) (A1 : S1024x1024.Idx → EReal) (A2 A3 : S1x1024.Idx → EReal) (A4 : S1024x128.Idx → EReal) (r : Fin 32768) (k : Fin 128) : EReal :=
  logit (znK A0 A1 A2 A3 r) (fun d => A4 (ix2 d k))

/-- The first output array as one function of the staged arrays. -/
def G5 (A0 : S32768x1024.Idx → EReal) (A1 : S1024x1024.Idx → EReal) (A2 A3 : S1x1024.Idx → EReal) : S32768x1024.Idx → EReal :=
  fun i => znK A0 A1 A2 A3 ⟨(i 0).val, idx2_lt0 i⟩ ⟨(i 1).val, idx2_lt1 i⟩

/-- The second output array as one function of the staged arrays. -/
def G6 (A0 : S32768x1024.Idx → EReal) (A1 : S1024x1024.Idx → EReal) (A2 A3 : S1x1024.Idx → EReal) (A4 : S1024x128.Idx → EReal) : S32768x128.Idx → EReal :=
  fun i => lgK A0 A1 A2 A3 A4 ⟨(i 0).val, idx2_lt0 i⟩ ⟨(i 1).val, idx2_lt1 i⟩

/-- One point's first stored block, when its input blocks are the staged arrays' rows `row p` and whole blocks. -/
theorem blk5_at (A0 : S32768x1024.Idx → EReal) (A1 : S1024x1024.Idx → EReal) (A2 A3 : S1x1024.Idx → EReal) (x0 : Vec Ideal S1024x1024 .f32) (x1 : Vec Ideal S1024x1024 .bf16) (x2 x3 : Vec Ideal S1x1024 .f32)
    (row : Fin 1024 → Fin 32768)
    (h0 : ∀ p k : Fin 1024, x0 (ix2 p k) = A0 (ix2 (row p) k))
    (h1 : ∀ k o : Fin 1024, x1 (ix2 k o) = A1 (ix2 k o))
    (h2 : ∀ o : Fin 1024, x2 (ix2 (0 : Fin 1) o) = A2 (ix2 (0 : Fin 1) o))
    (h3 : ∀ o : Fin 1024, x3 (ix2 (0 : Fin 1) o) = A3 (ix2 (0 : Fin 1) o)) (p o : Fin 1024) :
    k0_pay2 (F := Ideal) x0 x1 x2 x3 (ix2 p o) = znK A0 A1 A2 A3 (row p) o := by
  rw [pay2_apply]; unfold znK; simp only [h0, h1, h2, h3]

/-- One point's second stored block, likewise. -/
theorem blk6_at (A0 : S32768x1024.Idx → EReal) (A1 : S1024x1024.Idx → EReal) (A2 A3 : S1x1024.Idx → EReal) (A4 : S1024x128.Idx → EReal) (x0 : Vec Ideal S1024x1024 .f32) (x1 : Vec Ideal S1024x1024 .bf16)
    (x2 x3 : Vec Ideal S1x1024 .f32) (x4 : Vec Ideal S1024x128 .bf16) (row : Fin 1024 → Fin 32768)
    (h0 : ∀ p k : Fin 1024, x0 (ix2 p k) = A0 (ix2 (row p) k))
    (h1 : ∀ k o : Fin 1024, x1 (ix2 k o) = A1 (ix2 k o))
    (h2 : ∀ o : Fin 1024, x2 (ix2 (0 : Fin 1) o) = A2 (ix2 (0 : Fin 1) o))
    (h3 : ∀ o : Fin 1024, x3 (ix2 (0 : Fin 1) o) = A3 (ix2 (0 : Fin 1) o))
    (h4 : ∀ (d : Fin 1024) (k : Fin 128), x4 (ix2 d k) = A4 (ix2 d k)) (p : Fin 1024) (k : Fin 128) :
    k0_pay1 (F := Ideal) (k0_pay3 (k0_pay2 x0 x1 x2 x3)) (k0_pay4 (k0_pay2 x0 x1 x2 x3)) x4 (ix2 p k)
      = lgK A0 A1 A2 A3 A4 (row p) k := by
  rw [pay1_apply]; unfold lgK
  simp only [blk5_at A0 A1 A2 A3 x0 x1 x2 x3 row h0 h1 h2 h3, h4]

variable (m : (ℓ : Loc nD τ sig) → Buf (Elt Ideal) ℓ) (ρ : Dev nD → PrngReg)

/-- The windows' block indices over the grid: the activations and both outputs at block row t, the rest at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The array row that row p of point t's blocks is. -/
def rowOf (t : Fin cfg0.N) (p : Fin 1024) : Fin 32768 :=
  ⟨t.val * 1024 + p.val, by have h := t.isLt; have hN : cfg0.N = 32 := N_0; have := p.isLt; omega⟩

theorem iblk0_apply (c : Dev nD) (t : Fin cfg0.N) (p k : Fin 1024) :
    (iblk m c 0 t : S1024x1024.Idx → EReal) (ix2 p k) = (V m c main_v0 : S32768x1024.Idx → EReal) (ix2 (rowOf t p) k) := by
  obtain ⟨e0, e1, -⟩ := idx_facts t
  show (V m c main_v0 : S32768x1024.Idx → EReal) (((cfg0.win 0).blk t).view.emb (ix2 p k)) = _
  refine congrArg (V m c main_v0 : S32768x1024.Idx → EReal) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

theorem iblk1_apply (c : Dev nD) (t : Fin cfg0.N) (k o : Fin 1024) :
    (iblk m c 1 t : S1024x1024.Idx → EReal) (ix2 k o) = (V m c main_v3 : S1024x1024.Idx → EReal) (ix2 k o) := by
  obtain ⟨-, -, e0, e1, -⟩ := idx_facts t
  show (V m c main_v3 : S1024x1024.Idx → EReal) (((cfg0.win 1).blk t).view.emb (ix2 k o)) = _
  refine congrArg (V m c main_v3 : S1024x1024.Idx → EReal) (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * o.val = o.val; rw [e1]; omega

theorem iblk2_apply (c : Dev nD) (t : Fin cfg0.N) (o : Fin 1024) :
    (iblk m c 2 t : S1x1024.Idx → EReal) (ix2 (0 : Fin 1) o) = (V m c main_v15 : S1x1024.Idx → EReal) (ix2 (0 : Fin 1) o) := by
  obtain ⟨-, -, -, -, e0, e1, -⟩ := idx_facts t
  show (V m c main_v15 : S1x1024.Idx → EReal) (((cfg0.win 2).blk t).view.emb (ix2 (0 : Fin 1) o)) = _
  refine congrArg (V m c main_v15 : S1x1024.Idx → EReal) (funext fun a => Fin.ext ?_)
  match a with
  | ⟨0, _⟩ => show win0_2.index t (0 : Fin 2) * 1 + 1 * 0 = 0; rw [e0]
  | ⟨1, _⟩ => show win0_2.index t (1 : Fin 2) * 1024 + 1 * o.val = o.val; rw [e1]; omega

theorem iblk3_apply (c : Dev nD) (t : Fin cfg0.N) (o : Fin 1024) :
    (iblk m c 3 t : S1x1024.Idx → EReal) (ix2 (0 : Fin 1) o) = (V m c main_v16 : S1x1024.Idx → EReal) (ix2 (0 : Fin 1) o) := by
  obtain ⟨-, -, -, -, -, -, e0, e1, -⟩ := idx_facts t
  show (V m c main_v16 : S1x1024.Idx → EReal) (((cfg0.win 3).blk t).view.emb (ix2 (0 : Fin 1) o)) = _
  refine congrArg (V m c main_v16 : S1x1024.Idx → EReal) (funext fun a => Fin.ext ?_)
  match a with
  | ⟨0, _⟩ => show win0_3.index t (0 : Fin 2) * 1 + 1 * 0 = 0; rw [e0]
  | ⟨1, _⟩ => show win0_3.index t (1 : Fin 2) * 1024 + 1 * o.val = o.val; rw [e1]; omega

theorem iblk4_apply (c : Dev nD) (t : Fin cfg0.N) (d : Fin 1024) (k : Fin 128) :
    (iblk m c 4 t : S1024x128.Idx → EReal) (ix2 d k) = (V m c main_v14 : S1024x128.Idx → EReal) (ix2 d k) := by
  obtain ⟨-, -, -, -, -, -, -, -, e0, e1, -⟩ := idx_facts t
  show (V m c main_v14 : S1024x128.Idx → EReal) (((cfg0.win 4).blk t).view.emb (ix2 d k)) = _
  refine congrArg (V m c main_v14 : S1024x128.Idx → EReal) (funext fun a => Fin.ext ?_)
  match a with
  | ⟨0, _⟩ => show win0_4.index t (0 : Fin 2) * 1024 + 1 * d.val = d.val; rw [e0]; omega
  | ⟨1, _⟩ => show win0_4.index t (1 : Fin 2) * 128 + 1 * k.val = k.val; rw [e1]; omega

/-- WHAT POINT t WRITES BACK to the first output array is block t of `G5` of the staged arrays. -/
theorem flushed5_eq (c : Dev nD) (t : Fin cfg0.N) :
    (dats m 0 c).flushed 5 t = ((cfg0.win 5).blk t).view.read (Elt Ideal) (G5 (V m c main_v0) (V m c main_v3) (V m c main_v15) (V m c main_v16)) := by
  show (cfg0.win 5).cut (grid0.coords t) ((dats m 0 c).after 5 t) = _
  rw [after0_5]
  unfold outsAt0
  dsimp only
  rw [out5_eq]
  obtain ⟨-, -, -, -, -, -, -, -, -, -, e0, e1, -⟩ := idx_facts t
  funext j
  obtain ⟨p, o, rfl⟩ : ∃ (p o : Fin 1024), j = ix2 p o := ⟨j 0, j 1, eq_ix2 j⟩
  show k0_pay2 (F := Ideal) (iblk m c 0 t) (iblk m c 1 t) (iblk m c 2 t) (iblk m c 3 t) (ix2 p o)
    = G5 (V m c main_v0) (V m c main_v3) (V m c main_v15) (V m c main_v16) (((cfg0.win 5).blk t).view.emb (ix2 p o))
  rw [blk5_at (V m c main_v0) (V m c main_v3) (V m c main_v15) (V m c main_v16) (iblk m c 0 t) (iblk m c 1 t) (iblk m c 2 t) (iblk m c 3 t) (rowOf t)
    (iblk0_apply m c t) (iblk1_apply m c t) (iblk2_apply m c t) (iblk3_apply m c t) p o]
  unfold G5
  have er : (⟨((((cfg0.win 5).blk t).view.emb (ix2 p o)) 0).val, idx2_lt0 _⟩ : Fin 32768) = rowOf t p := Fin.ext (by
    show win0_5.index t (0 : Fin 2) * 1024 + 1 * p.val = t.val * 1024 + p.val; rw [e0]; omega)
  have eo : (⟨((((cfg0.win 5).blk t).view.emb (ix2 p o)) 1).val, idx2_lt1 _⟩ : Fin 1024) = o := Fin.ext (by
    show win0_5.index t (1 : Fin 2) * 1024 + 1 * o.val = o.val; rw [e1]; omega)
  rw [er, eo]

/-- WHAT POINT t WRITES BACK to the second output array is block t of `G6` of the staged arrays. -/
theorem flushed6_eq (c : Dev nD) (t : Fin cfg0.N) :
    (dats m 0 c).flushed 6 t = ((cfg0.win 6).blk t).view.read (Elt Ideal) (G6 (V m c main_v0) (V m c main_v3) (V m c main_v15) (V m c main_v16) (V m c main_v14)) := by
  show (cfg0.win 6).cut (grid0.coords t) ((dats m 0 c).after 6 t) = _
  rw [after0_6]
  unfold outsAt0
  dsimp only
  rw [out6_eq]
  obtain ⟨-, -, -, -, -, -, -, -, -, -, -, -, e0, e1⟩ := idx_facts t
  funext j
  obtain ⟨p, k, rfl⟩ : ∃ (p : Fin 1024) (k : Fin 128), j = ix2 p k := ⟨j 0, j 1, eq_ix2 j⟩
  show k0_pay1 (F := Ideal) (k0_pay3 (k0_pay2 (iblk m c 0 t) (iblk m c 1 t) (iblk m c 2 t) (iblk m c 3 t)))
      (k0_pay4 (k0_pay2 (iblk m c 0 t) (iblk m c 1 t) (iblk m c 2 t) (iblk m c 3 t))) (iblk m c 4 t) (ix2 p k)
    = G6 (V m c main_v0) (V m c main_v3) (V m c main_v15) (V m c main_v16) (V m c main_v14) (((cfg0.win 6).blk t).view.emb (ix2 p k))
  rw [blk6_at (V m c main_v0) (V m c main_v3) (V m c main_v15) (V m c main_v16) (V m c main_v14) (iblk m c 0 t) (iblk m c 1 t) (iblk m c 2 t) (iblk m c 3 t) (iblk m c 4 t) (rowOf t)
    (iblk0_apply m c t) (iblk1_apply m c t) (iblk2_apply m c t) (iblk3_apply m c t) (iblk4_apply m c t) p k]
  unfold G6
  have er : (⟨((((cfg0.win 6).blk t).view.emb (ix2 p k)) 0).val, idx2_lt0 _⟩ : Fin 32768) = rowOf t p := Fin.ext (by
    show win0_6.index t (0 : Fin 2) * 1024 + 1 * p.val = t.val * 1024 + p.val; rw [e0]; omega)
  have ek : (⟨((((cfg0.win 6).blk t).view.emb (ix2 p k)) 1).val, idx2_lt1 _⟩ : Fin 128) = k := Fin.ext (by
    show win0_6.index t (1 : Fin 2) * 128 + 1 * k.val = k.val; rw [e1]; omega)
  rw [er, ek]

/-- An index of the first output array is in point t's block iff each coordinate is in the block's range. -/
theorem mem_blk5 (t : Fin cfg0.N) (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v17_0).slice (win0_5.rect t)).set ↔ _
  rw [View.set_slice_whole, Rect.mem_set_unit]
  exact Iff.rfl

theorem mem_blk6 (t : Fin cfg0.N) (i : S32768x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v17_1).slice (win0_6.rect t)).set ↔ _
  rw [View.set_slice_whole, Rect.mem_set_unit]
  exact Iff.rfl

/-- Every row r of the first output array is in the block of point r / 1024. -/
theorem cover5 (i : S32768x1024.Idx) :
    ∃ t : Fin cfg0.N, (cfg0.win 5).flush t = true ∧ i ∈ ((cfg0.win 5).blk t).view.set := by
  have hN : cfg0.N = 32 := N_0
  have hi0 : (i 0).val < 32768 := idx2_lt0 i
  have hi1 : (i 1).val < 1024 := idx2_lt1 i
  have ht : (i 0).val / 1024 < cfg0.N := by rw [hN]; omega
  refine ⟨⟨(i 0).val / 1024, ht⟩, flush0_5 _, ?_⟩
  rw [mem_blk5]
  obtain ⟨-, -, -, -, -, -, -, -, -, -, e0, e1, -⟩ := idx_facts ⟨(i 0).val / 1024, ht⟩
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 1024 ≤ (i 1).val ∧ (i 1).val < win0_5.index ⟨(i 0).val / 1024, ht⟩ (1 : Fin 2) * 1024 + 1024
    rw [e1]; omega

theorem cover6 (i : S32768x128.Idx) :
    ∃ t : Fin cfg0.N, (cfg0.win 6).flush t = true ∧ i ∈ ((cfg0.win 6).blk t).view.set := by
  have hN : cfg0.N = 32 := N_0
  have hi0 : (i 0).val < 32768 := idx2_lt0 i
  have hi1 : (i 1).val < 128 := idx2_lt1 i
  have ht : (i 0).val / 1024 < cfg0.N := by rw [hN]; omega
  refine ⟨⟨(i 0).val / 1024, ht⟩, flush0_6 _, ?_⟩
  rw [mem_blk6]
  obtain ⟨-, -, -, -, -, -, -, -, -, -, -, -, e0, e1⟩ := idx_facts ⟨(i 0).val / 1024, ht⟩
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, ht⟩ (1 : Fin 2) * 128 ≤ (i 1).val ∧ (i 1).val < win0_6.index ⟨(i 0).val / 1024, ht⟩ (1 : Fin 2) * 128 + 128
    rw [e1]; omega

/-- THE ARRAYS AFTER THE REGION: the two output arrays hold `G5` and `G6` of the staged arrays. -/
theorem final5 (c : Dev nD) : (dats m 0 c).arrAt 5 cfg0.N = G5 (V m c main_v0) (V m c main_v3) (V m c main_v15) (V m c main_v16) :=
  (dats m 0 c).arrAt_eq_of_cover 5 _ (fun t _ => flushed5_eq m c t) cover5

theorem final6 (c : Dev nD) : (dats m 0 c).arrAt 6 cfg0.N = G6 (V m c main_v0) (V m c main_v3) (V m c main_v15) (V m c main_v16) (V m c main_v14) :=
  (dats m 0 c).arrAt_eq_of_cover 6 _ (fun t _ => flushed6_eq m c t) cover6

end Cert.KernelIdeal.Hand

end
-- ==== Proof.RefSide.lean ====
/-
  The reference, one row at a time: its second result (the normalized activations) at (b, s, o) is the layer norm of
  row (b, s)'s product with the masked weight, and its first result (the logits) at (b, s, k) is the scaled cosine
  similarity of that normalized row with prototype k's unit vector. Each host sum starts from the word for zero, which
  is the extended real 0 and drops out; the host's quotient, square root and reciprocal square root are the extended
  reals' own.
-/
import proofs.«175506_j69011534512402_2_alg».proof.Proof.Gen.ReferenceIdeal.Read
import proofs.«175506_j69011534512402_2_alg».proof.Proof.RowSpec
import Idealize.ShloMosaic.Lib.ValueIdx
import Idealize.ShloMosaic.PureOps.Ideal.Laws

noncomputable section

open Idealize.ShloMosaic Idealize.ShloMosaic.TcCoe Idealize.SL.Sem
open Idealize.ShloMosaic.ValueIdx Cert.RowSpec
namespace Cert.ReferenceIdeal.Hand

open Cert.ReferenceIdeal Cert.ReferenceIdeal.Read

/-- Two indices of rank 0, 1, 2 or 3 built from the same coordinates are equal. -/
local macro "idx_eq0" : tactic => `(tactic| (funext a; exact a.elim0))
local macro "idx_eq1" : tactic => `(tactic| (funext a; apply Fin.ext; match a with | ⟨0, _⟩ => rfl))
local macro "idx_eq2" : tactic => `(tactic| (funext a; apply Fin.ext; match a with | ⟨0, _⟩ => rfl | ⟨1, _⟩ => rfl))
local macro "idx_eq3" : tactic => `(tactic| (funext a; apply Fin.ext; match a with | ⟨0, _⟩ => rfl | ⟨1, _⟩ => rfl | ⟨2, _⟩ => rfl))

/-- Row (b, s) of the activations times the masked weight: entry o. -/
def zrow (x0 : (⟨S8x4096x1024, .f32⟩ : BufTy).Contents (Elt Ideal)) (x1 x2 : (⟨S1024x1024, .f32⟩ : BufTy).Contents (Elt Ideal))
    (b : Fin 8) (s : Fin 4096) (o : Fin 1024) : EReal :=
  ∑ k : Fin 1024, x0 (ix3 b s k) * (x1 (ix2 o k) * x2 (ix2 o k))

/-- The normalized row (b, s): the layer norm of `zrow` with the scale and shift vectors. -/
def znrow (x0 : (⟨S8x4096x1024, .f32⟩ : BufTy).Contents (Elt Ideal)) (x1 x2 : (⟨S1024x1024, .f32⟩ : BufTy).Contents (Elt Ideal)) (x3 x4 : (⟨S1024, .f32⟩ : BufTy).Contents (Elt Ideal)) (b : Fin 8) (s : Fin 4096) (o : Fin 1024) : EReal :=
  layerNorm (zrow x0 x1 x2 b s) (fun o' => x3 (ix1 o')) (fun o' => x4 (ix1 o')) o

/-- Prototype k (one of the first nine rows of the table) as a row. -/
def proto (x5 : (⟨S64x1024, .f32⟩ : BufTy).Contents (Elt Ideal)) (k : Fin 9) (e : Fin 1024) : EReal :=
  x5 (ix2 (⟨k.val, by omega⟩ : Fin 64) e)

theorem v1_at (x0 : (⟨S8x4096x1024, .f32⟩ : BufTy).Contents (Elt Ideal)) (x1 x2 : (⟨S1024x1024, .f32⟩ : BufTy).Contents (Elt Ideal)) (b : Fin 8) (s : Fin 4096) (o : Fin 1024) :
    val_main_v1 (F := Ideal) x0 x1 x2 (ix3 b s o) = zrow x0 x1 x2 b s o := by
  rw [val_main_v1_apply]
  refine Finset.sum_congr rfl fun k _ => ?_
  rw [val_main_v0_apply]
  have e1 : lidx_main_v1 (ix3 b s o) k = ix3 b s k := by idx_eq3
  have e2 : ridx_main_v1 (ix3 b s o) k = ix2 o k := by idx_eq2
  rw [e1, e2]
  rfl

theorem v5_at (x0 : (⟨S8x4096x1024, .f32⟩ : BufTy).Contents (Elt Ideal)) (x1 x2 : (⟨S1024x1024, .f32⟩ : BufTy).Contents (Elt Ideal)) (b : Fin 8) (s : Fin 4096) (u : Fin 1) :
    val_main_v5 (F := Ideal) x0 x1 x2 (ix3 b s u) = rowMean (zrow x0 x1 x2 b s) := by
  rw [val_main_v5_apply, val_main_v3_apply, val_main_v2_apply, val_main_v4_apply, val_main_cst_0_apply, val_main_cst_apply]
  have e1 : ∀ k, idx_main_v2 (idx_main_v3 (ix3 b s u)) k = ix3 b s k := fun k => by idx_eq3
  simp only [e1, v1_at, Ideal.ofBits_def, Ideal.ofBits_zero_f32, zero_add, Ideal.hostDivf_def]
  rfl

theorem v12_at (x0 : (⟨S8x4096x1024, .f32⟩ : BufTy).Contents (Elt Ideal)) (x1 x2 : (⟨S1024x1024, .f32⟩ : BufTy).Contents (Elt Ideal)) (b : Fin 8) (s : Fin 4096) (u : Fin 1) :
    val_main_v12 (F := Ideal) x0 x1 x2 (ix3 b s u) = rowVar (zrow x0 x1 x2 b s) := by
  rw [val_main_v12_apply, val_main_v10_apply, val_main_v9_apply, val_main_v11_apply, val_main_cst_2_apply, val_main_cst_1_apply]
  have e1 : ∀ k, idx_main_v9 (idx_main_v10 (ix3 b s u)) k = ix3 b s k := fun k => by idx_eq3
  have e2 : ∀ k : Fin 1024, idx_main_v6 (ix3 b s k) = ix3 b s (0 : Fin 1) := fun k => by idx_eq3
  simp only [e1, val_main_v8_apply, val_main_v7_apply, val_main_v6_apply, e2, v1_at, v5_at, Ideal.ofBits_def,
    Ideal.ofBits_zero_f32, zero_add, Ideal.hostDivf_def, Ideal.subf_def, Ideal.mulf_def]
  rfl

/-- THE SECOND RESULT at (b, s, o): the normalized row. -/
theorem v25_at (x0 : (⟨S8x4096x1024, .f32⟩ : BufTy).Contents (Elt Ideal)) (x1 x2 : (⟨S1024x1024, .f32⟩ : BufTy).Contents (Elt Ideal)) (x3 x4 : (⟨S1024, .f32⟩ : BufTy).Contents (Elt Ideal)) (b : Fin 8) (s : Fin 4096) (o : Fin 1024) :
    val_main_v25 (F := Ideal) x0 x1 x2 x3 x4 (ix3 b s o) = znrow x0 x1 x2 x3 x4 b s o := by
  rw [val_main_v25_apply, val_main_v22_apply, val_main_v24_apply, val_main_v23_apply, val_main_v21_apply,
    val_main_v20_apply, val_main_v19_apply, val_main_v18_apply, val_main_v17_apply, val_main_v16_apply,
    val_main_v15_apply, val_main_cst_3_apply, val_main_v14_apply, val_main_v13_apply]
  have e1 : idx_main_v20 (idx_main_v21 (ix3 b s o)) = ix1 o := by idx_eq1
  have e2 : idx_main_v23 (idx_main_v24 (ix3 b s o)) = ix1 o := by idx_eq1
  have e3 : idx_main_v18 (ix3 b s o) = ix3 b s (0 : Fin 1) := by idx_eq3
  have e4 : idx_main_v13 (ix3 b s o) = ix3 b s (0 : Fin 1) := by idx_eq3
  simp only [e1, e2, e3, e4, v1_at, v5_at, v12_at, Ideal.ofBits_def, Ideal.hostUnary_rsqrt_def, Ideal.addf_def,
    Ideal.subf_def, Ideal.mulf_def]
  rfl

/-- The normalized row's unit vector, as the reference forms it. -/
theorem v31_at (x0 : (⟨S8x4096x1024, .f32⟩ : BufTy).Contents (Elt Ideal)) (x1 x2 : (⟨S1024x1024, .f32⟩ : BufTy).Contents (Elt Ideal)) (x3 x4 : (⟨S1024, .f32⟩ : BufTy).Contents (Elt Ideal)) (b : Fin 8) (s : Fin 4096) (d : Fin 1024) :
    val_main_v31 (F := Ideal) x0 x1 x2 x3 x4 (ix3 b s d) = unit (znrow x0 x1 x2 x3 x4 b s) d := by
  rw [val_main_v31_apply, val_main_v30_apply, val_main_v29_apply, val_main_v28_apply, val_main_cst_4_apply,
    val_main_v27_apply, val_main_call0_v2_apply, val_main_call0_v1_apply, val_main_call0_cst_apply]
  have e1 : ∀ k, idx_main_call0_v1 (idx_main_call0_v2 (idx_main_v30 (ix3 b s d))) k = ix3 b s k := fun k => by idx_eq3
  simp only [e1, val_main_call0_v0_apply, v25_at, Ideal.ofBits_def, Ideal.ofBits_zero_f32, zero_add,
    Ideal.hostDivf_def, Ideal.hostUnary_sqrt_def, Ideal.maximumf_def, Ideal.mulf_def]
  rfl

/-- A prototype's unit vector, as the reference forms it. -/
theorem v36_at (x5 : (⟨S64x1024, .f32⟩ : BufTy).Contents (Elt Ideal)) (k : Fin 9) (d : Fin 1024) :
    val_main_v36 (F := Ideal) x5 (ix2 k d) = unit (proto x5 k) d := by
  rw [val_main_v36_apply, val_main_v35_apply, val_main_v34_apply, val_main_v33_apply, val_main_cst_5_apply,
    val_main_v32_apply, val_main_call1_v2_apply, val_main_call1_v1_apply, val_main_call1_cst_apply, val_main_v26_apply]
  have e1 : ∀ e, idx_main_v26 (idx_main_call1_v1 (idx_main_call1_v2 (idx_main_v35 (ix2 k d))) e) = ix2 (⟨k.val, by omega⟩ : Fin 64) e :=
    fun e => by idx_eq2
  have e2 : idx_main_v26 (ix2 k d) = ix2 (⟨k.val, by omega⟩ : Fin 64) d := by idx_eq2
  simp only [e1, e2, val_main_call1_v0_apply, val_main_v26_apply, Ideal.ofBits_def, Ideal.ofBits_zero_f32, zero_add,
    Ideal.hostDivf_def, Ideal.hostUnary_sqrt_def, Ideal.maximumf_def, Ideal.mulf_def]
  rfl

/-- THE FIRST RESULT at (b, s, k): the scaled cosine similarity of the normalized row with prototype k. -/
theorem v39_at (x0 : (⟨S8x4096x1024, .f32⟩ : BufTy).Contents (Elt Ideal)) (x1 x2 : (⟨S1024x1024, .f32⟩ : BufTy).Contents (Elt Ideal)) (x3 x4 : (⟨S1024, .f32⟩ : BufTy).Contents (Elt Ideal)) (x5 : (⟨S64x1024, .f32⟩ : BufTy).Contents (Elt Ideal)) (b : Fin 8) (s : Fin 4096) (k : Fin 9) :
    val_main_v39 (F := Ideal) x0 x1 x2 x3 x4 x5 (ix3 b s k)
      = logit (znrow x0 x1 x2 x3 x4 b s) (fun d => unit (proto x5 k) d) := by
  rw [val_main_v39_apply, val_main_v38_apply, val_main_cst_6_apply, val_main_v37_apply]
  have e1 : ∀ d, lidx_main_v37 (ix3 b s k) d = ix3 b s d := fun d => by idx_eq3
  have e2 : ∀ d, ridx_main_v37 (ix3 b s k) d = ix2 k d := fun d => by idx_eq2
  simp only [e1, e2, v31_at, v36_at, Ideal.ofBits_def, Ideal.hostDivf_def]
  rfl

end Cert.ReferenceIdeal.Hand

end
-- ==== Proof.LibScatter.lean ====
/-
  A scatter whose update body returns the update (`x.at[...].set(u)`), read at one operand index.

  The host's scatter is a left fold over the update indices: each update whose target index lies inside the operand
  overwrites that entry, the others are dropped. Read at an operand index `i₀` that EXACTLY ONE update index `j₀`
  targets, the result is that update's value — whatever the other updates do elsewhere, and wherever `j₀` sits in the
  fold's order.
-/
import Idealize.ShloMosaic.PureOps.ShapeOps

namespace Cert.LibScatter

open Idealize.ShloMosaic

/-- A left fold of overwriting steps, read at an index `i₀`: if some element of the list targets `i₀` and every element
    that targets `i₀` carries the value `a₀`, the result at `i₀` is `a₀`. The step is abstract: it overwrites the target
    entry when the element has one (`hs`) and changes nothing when it has none (`hn`). -/
theorem foldl_overwrite_apply {ι κ α : Type} [DecidableEq κ] (g : ι → Option κ) (v : ι → α)
    (step : (κ → α) → ι → (κ → α))
    (hs : ∀ r n i, g n = some i → step r n = fun i' => if i' = i then v n else r i')
    (hn : ∀ r n, g n = none → step r n = r)
    (i₀ : κ) (a₀ : α) (x : κ → α) :
    ∀ L : List ι, (∃ n ∈ L, g n = some i₀) → (∀ n ∈ L, g n = some i₀ → v n = a₀) → L.foldl step x i₀ = a₀ := by
  intro L
  induction L using List.reverseRecOn with
  | nil => rintro ⟨n, hn', _⟩; exact absurd hn' (List.not_mem_nil)
  | append_singleton L n ih =>
    intro hex hall
    rw [List.foldl_append, List.foldl_cons, List.foldl_nil]
    by_cases hg : g n = some i₀
    · rw [hs _ n i₀ hg]
      dsimp only
      rw [if_pos rfl]
      exact hall n (List.mem_append_right _ (List.mem_singleton.mpr rfl)) hg
    · have hex' : ∃ k ∈ L, g k = some i₀ := by
        obtain ⟨k, hk, hgk⟩ := hex
        rcases List.mem_append.mp hk with h | h
        · exact ⟨k, h, hgk⟩
        · obtain rfl := List.mem_singleton.mp h
          exact absurd hgk hg
      have ih' := ih hex' (fun k hk => hall k (List.mem_append_left _ hk))
      cases hgn : g n with
      | none => rw [hn _ n hgn]; exact ih'
      | some i =>
        have hne : i₀ ≠ i := fun h => hg (by rw [hgn, h])
        rw [hs _ n i hgn]
        dsimp only
        rw [if_neg hne]; exact ih'

/-- THE SCATTER READ AT AN INDEX: with the update body returning the update, if update index `j₀` lands at operand index
    `i₀` and no other update index does, the scatter's result at `i₀` is the update at `j₀`. -/
theorem scatter_set_apply {s si u : Shape} {α : Type} {w : Nat} (d : ScatterDims s si u) (x : s.Idx → α)
    (idx : IVec si w) (upd : u.Idx → α) (j₀ : u.Idx) (i₀ : s.Idx) (h₀ : d.resultIdx? j₀ idx = some i₀)
    (huniq : ∀ j, d.resultIdx? j idx = some i₀ → j = j₀) :
    Host.scatter d (fun _ b => b) x idx upd i₀ = upd j₀ := by
  unfold Host.scatter
  refine foldl_overwrite_apply (fun n => d.resultIdx? (u.rowMajor.symm n) idx) (fun n => upd (u.rowMajor.symm n)) _
    (fun r n i h => ?_) (fun r n h => ?_) i₀ (upd j₀) x _ ⟨u.rowMajor j₀, List.mem_finRange _, ?_⟩ (fun n _ h => ?_)
  · have h' : d.resultIdx? (u.rowMajor.symm n) idx = some i := h
    simp only [h']
  · have h' : d.resultIdx? (u.rowMajor.symm n) idx = none := h
    simp only [h']
  · show d.resultIdx? (u.rowMajor.symm (u.rowMajor j₀)) idx = some i₀
    rw [Equiv.symm_apply_apply]; exact h₀
  · have h' : d.resultIdx? (u.rowMajor.symm n) idx = some i₀ := h
    show upd (u.rowMajor.symm n) = upd j₀
    rw [huniq _ h']

end Cert.LibScatter
-- ==== Proof.HostIn.lean ====
/-
  What the kernel's region finds in the five arrays it stages, entry by entry, in terms of the program's arguments:
    * the activations, flattened from [8, 4096, 1024] to [32768, 1024]: row r is row (r / 4096, r % 4096);
    * the weight block: the masked weight transposed, so entry (k, o) is weight (o, k) · mask (o, k);
    * the scale and the shift as single rows;
    * the prototype table [1024, 128]: column k < 9 is prototype k's unit vector (the host forms it exactly as the
      reference does, so the reference's own reading of that chain is reused); the table is written by a scatter of the
      [1024, 9] transposed unit vectors at column offset 0 into zeros, and each entry (d, k) with k < 9 is the target
      of exactly one update entry, (d, k) itself.
-/
import proofs.«175506_j69011534512402_2_alg».proof.Proof.Gen.KernelIdeal.Frame
import proofs.«175506_j69011534512402_2_alg».proof.Proof.RefSide
import proofs.«175506_j69011534512402_2_alg».proof.Proof.LibScatter
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx Cert.RowSpec
namespace Cert.KernelIdeal.Hand

open Cert.KernelIdeal Cert.KernelIdeal.Gen

variable (m : (ℓ : Loc nD τ sig) → Buf (Elt Ideal) ℓ)

/-- The six argument arrays on core c, as functions of their indices. -/
abbrev arg0 (c : Dev nD) : S8x4096x1024.Idx → EReal := m ((c : Thread nD τ).loc main_arg0)
abbrev arg1 (c : Dev nD) : S1024x1024.Idx → EReal := m ((c : Thread nD τ).loc main_arg1)
abbrev arg2 (c : Dev nD) : S1024x1024.Idx → EReal := m ((c : Thread nD τ).loc main_arg2)
abbrev arg3 (c : Dev nD) : S1024.Idx → EReal := m ((c : Thread nD τ).loc main_arg3)
abbrev arg4 (c : Dev nD) : S1024.Idx → EReal := m ((c : Thread nD τ).loc main_arg4)
abbrev arg5 (c : Dev nD) : S64x1024.Idx → EReal := m ((c : Thread nD τ).loc main_arg5)

/-- The contents of a buffer at the region's entry, as the host operations before the region leave them. -/
local macro "open_V" : tactic => `(tactic| (dsimp only [V, V0]; simp only [hostOps0, hostOps0_1, hostOps0_2, List.flatten_cons, List.flatten_nil, List.append_nil, List.cons_append, List.nil_append]; after_results))

/-! ## The activations, flattened -/

theorem V_v0_eq (c : Dev nD) : @Eq (S32768x1024.Idx → EReal) (V m c main_v0)
    (shapeCast S32768x1024 (arg0 m c) shapeCasts_S8x4096x1024_S32768x1024) := by
  open_V; try rfl

/-- Row r of the flattened activations is row (r / 4096, r % 4096) of the argument. -/
theorem V_v0_apply (c : Dev nD) (r : Fin 32768) (k : Fin 1024) :
    (V m c main_v0 : S32768x1024.Idx → EReal) (ix2 r k)
      = arg0 m c (ix3 (⟨r.val / 4096, by omega⟩ : Fin 8) (⟨r.val % 4096, by omega⟩ : Fin 4096) k) := by
  rw [V_v0_eq]
  refine shapeCast_apply (arg0 m c) _ _ _ ?_
  show (S8x4096x1024.rowMajor (ix3 (⟨r.val / 4096, by omega⟩ : Fin 8) (⟨r.val % 4096, by omega⟩ : Fin 4096) k)).val
    = (S32768x1024.rowMajor (ix2 r k)).val
  rw [Shape.rowMajor_val_three, Shape.rowMajor_val_two]
  show (r.val / 4096 * 4096 + r.val % 4096) * 1024 + k.val = r.val * 1024 + k.val
  omega

/-! ## The weight block -/

theorem V_v3_eq (c : Dev nD) : @Eq (S1024x1024.Idx → EReal) (V m c main_v3)
    (truncf (F := Ideal) .bf16 (transpose S1024x1024 [1, 0]
        (mulf (F := Ideal) (φ := .f32) (arg1 m c) (arg2 m c))
        transposes_S1024x1024_S1024x1024_1_0) bitsLt_bf16_f32) := by
  open_V; try rfl

/-- Entry (k, o) of the weight block is weight (o, k) · mask (o, k). -/
theorem V_v3_apply (c : Dev nD) (k o : Fin 1024) :
    (V m c main_v3 : S1024x1024.Idx → EReal) (ix2 k o)
      = arg1 m c (ix2 o k) * arg2 m c (ix2 o k) := by
  rw [V_v3_eq]
  rw [truncf_apply, transpose_ix2_apply, mulf_apply]

/-! ## The scale and the shift, as rows -/

theorem V_v15_eq (c : Dev nD) : @Eq (S1x1024.Idx → EReal) (V m c main_v15)
    (shapeCast S1x1024 (arg3 m c) shapeCasts_S1024_S1x1024) := by
  open_V; try rfl

theorem V_v15_apply (c : Dev nD) (u : Fin 1) (o : Fin 1024) :
    (V m c main_v15 : S1x1024.Idx → EReal) (ix2 u o) = arg3 m c (ix1 o) := by
  rw [V_v15_eq]; exact shapeCast_a_1a_apply (arg3 m c) _ u o

theorem V_v16_eq (c : Dev nD) : @Eq (S1x1024.Idx → EReal) (V m c main_v16)
    (shapeCast S1x1024 (arg4 m c) shapeCasts_S1024_S1x1024) := by
  open_V; try rfl

theorem V_v16_apply (c : Dev nD) (u : Fin 1) (o : Fin 1024) :
    (V m c main_v16 : S1x1024.Idx → EReal) (ix2 u o) = arg4 m c (ix1 o) := by
  rw [V_v16_eq]; exact shapeCast_a_1a_apply (arg4 m c) _ u o

/-! ## The prototype table -/

/-- The scatter's index operand: the one start index, zero. -/
abbrev startZero : IVec S1 32 := broadcastInDim S1 ![] bcast_S_S1 (constantI S_ 32 0#32)

theorem startZero_apply (i : S1.Idx) : startZero i = 0#32 := rfl

theorem sc_start (j : S1024x9.Idx) (a : Fin S1024x128.rank) : scatter_S1024x128_S1_S1024x9_01_n_1_0.start j startZero a = 0 := by
  unfold ScatterDims.start
  split
  · rw [startZero_apply]; rfl
  · rfl

theorem sc_window0 (j : S1024x9.Idx) : scatter_S1024x128_S1_S1024x9_01_n_1_0.window j (0 : Fin S1024x128.rank) = (j 0).val := by
  unfold ScatterDims.window
  rw [dif_pos (show (0 : Fin S1024x128.rank) ∈ scatter_S1024x128_S1_S1024x9_01_n_1_0.sKept by decide)]
  rfl

theorem sc_window1 (j : S1024x9.Idx) : scatter_S1024x128_S1_S1024x9_01_n_1_0.window j (1 : Fin S1024x128.rank) = (j 1).val := by
  unfold ScatterDims.window
  rw [dif_pos (show (1 : Fin S1024x128.rank) ∈ scatter_S1024x128_S1_S1024x9_01_n_1_0.sKept by decide)]
  rfl

/-- Update entry (d, k) lands on table entry (d, k): the window starts at row 0, column 0. -/
theorem sc_resultIdx (d : Fin 1024) (k : Fin 9) :
    scatter_S1024x128_S1_S1024x9_01_n_1_0.resultIdx? (ix2 d k) startZero = some (ix2 d (⟨k.val, by omega⟩ : Fin 128)) := by
  have h0 : scatter_S1024x128_S1_S1024x9_01_n_1_0.start (ix2 d k) startZero (0 : Fin S1024x128.rank) + (scatter_S1024x128_S1_S1024x9_01_n_1_0.window (ix2 d k) (0 : Fin S1024x128.rank) : ℤ) = (d.val : ℤ) := by
    rw [sc_start, sc_window0]; simp
  have h1 : scatter_S1024x128_S1_S1024x9_01_n_1_0.start (ix2 d k) startZero (1 : Fin S1024x128.rank) + (scatter_S1024x128_S1_S1024x9_01_n_1_0.window (ix2 d k) (1 : Fin S1024x128.rank) : ℤ) = (k.val : ℤ) := by
    rw [sc_start, sc_window1]; simp
  unfold ScatterDims.resultIdx?
  rw [dif_pos (fun a => by
    match a with
    | ⟨0, _⟩ =>
      show 0 ≤ scatter_S1024x128_S1_S1024x9_01_n_1_0.start (ix2 d k) startZero (0 : Fin S1024x128.rank) + (scatter_S1024x128_S1_S1024x9_01_n_1_0.window (ix2 d k) (0 : Fin S1024x128.rank) : ℤ)
        ∧ scatter_S1024x128_S1_S1024x9_01_n_1_0.start (ix2 d k) startZero (0 : Fin S1024x128.rank) + (scatter_S1024x128_S1_S1024x9_01_n_1_0.window (ix2 d k) (0 : Fin S1024x128.rank) : ℤ) < ((1024 : ℕ) : ℤ)
      rw [h0]; have := d.isLt; omega
    | ⟨1, _⟩ =>
      show 0 ≤ scatter_S1024x128_S1_S1024x9_01_n_1_0.start (ix2 d k) startZero (1 : Fin S1024x128.rank) + (scatter_S1024x128_S1_S1024x9_01_n_1_0.window (ix2 d k) (1 : Fin S1024x128.rank) : ℤ)
        ∧ scatter_S1024x128_S1_S1024x9_01_n_1_0.start (ix2 d k) startZero (1 : Fin S1024x128.rank) + (scatter_S1024x128_S1_S1024x9_01_n_1_0.window (ix2 d k) (1 : Fin S1024x128.rank) : ℤ) < ((128 : ℕ) : ℤ)
      rw [h1]; have := k.isLt; omega)]
  refine congrArg some (funext fun a => Fin.ext ?_)
  match a with
  | ⟨0, _⟩ =>
    show (scatter_S1024x128_S1_S1024x9_01_n_1_0.start (ix2 d k) startZero (0 : Fin S1024x128.rank) + (scatter_S1024x128_S1_S1024x9_01_n_1_0.window (ix2 d k) (0 : Fin S1024x128.rank) : ℤ)).toNat = d.val
    rw [h0]; simp
  | ⟨1, _⟩ =>
    show (scatter_S1024x128_S1_S1024x9_01_n_1_0.start (ix2 d k) startZero (1 : Fin S1024x128.rank) + (scatter_S1024x128_S1_S1024x9_01_n_1_0.window (ix2 d k) (1 : Fin S1024x128.rank) : ℤ)).toNat = k.val
    rw [h1]; simp

/-- The first nine prototypes' unit vectors, as the host forms them (the reference's own stage). -/
abbrev liveUnit (c : Dev nD) : S9x1024.Idx → EReal := Cert.ReferenceIdeal.Read.val_main_v36 (F := Ideal) (arg5 m c)

/-- The table as the host forms it: zeros overwritten, at column offset 0, by the transposed unit vectors of the first
    nine prototypes (the reference's own stage for those unit vectors). -/

theorem V_v14_eq (c : Dev nD) : @Eq (S1024x128.Idx → EReal) (V m c main_v14)
    (Host.scatter scatter_S1024x128_S1_S1024x9_01_n_1_0 (fun _ b => b)
        (broadcastInDim S1024x128 ![] bcast_S_S1024x128 (constant (F := Ideal) S_ .bf16 0x0000#16))
        startZero
        (truncf (F := Ideal) (φ := .f32) .bf16 (transpose S1024x9 [1, 0] (liveUnit m c)
          transposes_S9x1024_S1024x9_1_0) bitsLt_bf16_f32)) := by
  open_V; try rfl

/-- Column k < 9 of the table is prototype k's unit vector. -/
theorem V_v14_apply (c : Dev nD) (d : Fin 1024) (k : Fin 9) :
    (V m c main_v14 : S1024x128.Idx → EReal) (ix2 d (⟨k.val, by omega⟩ : Fin 128))
      = unit (Cert.ReferenceIdeal.Hand.proto (arg5 m c) k) d := by
  rw [V_v14_eq]
  rw [Cert.LibScatter.scatter_set_apply scatter_S1024x128_S1_S1024x9_01_n_1_0 _ startZero _ (ix2 d k) (ix2 d (⟨k.val, by omega⟩ : Fin 128)) (sc_resultIdx d k)
    (fun j hj => by
      obtain ⟨d', k', rfl⟩ : ∃ (d' : Fin 1024) (k' : Fin 9), j = ix2 d' k' := ⟨j 0, j 1, eq_ix2 j⟩
      rw [sc_resultIdx d' k'] at hj
      have e := Option.some.inj hj
      have e0 : d' = d := congrFun e 0
      have e1 : (⟨k'.val, by omega⟩ : Fin 128) = ⟨k.val, by omega⟩ := congrFun e 1
      have e1' : k' = k := Fin.ext (Fin.mk.inj e1)
      rw [e0, e1'])]
  rw [truncf_apply, transpose_ix2_apply]
  exact Cert.ReferenceIdeal.Hand.v36_at (arg5 m c) k d

end Cert.KernelIdeal.Hand

end
-- ==== Proof.KernelValue.lean ====
/-
  The kernel's two results as functions of the arguments. After the region the host reshapes the first output array
  [32768, 1024] back to [8, 4096, 1024], and cuts the first 9 of the 128 padded logit columns and reshapes them to
  [8, 4096, 9]. Row r = 4096·b + s of the flattened arrays is row (b, s); with the staged arrays read in terms of the
  arguments, entry (b, s, o) of the first is the normalized row (b, s) at o and entry (b, s, k) of the second is the
  scaled cosine similarity of that row with prototype k — the same two functions the reference computes.
-/
import proofs.«175506_j69011534512402_2_alg».proof.Proof.Arrays
import proofs.«175506_j69011534512402_2_alg».proof.Proof.HostIn
import proofs.«175506_j69011534512402_2_alg».proof.Proof.RefSide
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.ValueIdx Cert.RowSpec Cert.ReferenceIdeal.Hand Cert.ReferenceIdeal.Read
open Idealize.ShloMosaic.Pipeline (Dat)
namespace Cert.KernelIdeal.Hand

open Cert.KernelIdeal Cert.KernelIdeal.Gen

variable (m : (ℓ : Loc nD τ sig) → Buf (Elt Ideal) ℓ) (ρ : Dev nD → PrngReg)

/-! ## The host operations after the region -/

theorem tail18 (c : Dev nD) : @Eq (S8x4096x1024.Idx → EReal) (Pipeline.afterTail₀ cfgs (dats m) 0 (V0 m) [hostOps1] c main_v18)
    (shapeCast S8x4096x1024 (G5 (V m c main_v0) (V m c main_v3) (V m c main_v15) (V m c main_v16)) shapeCasts_S32768x1024_S8x4096x1024) := by
  have e : @Eq (S32768x1024.Idx → EReal)
      (Pipeline.withArrays (cfgs 0).spec c (V0 m c) (fun w => (dats m 0 c).arrAt w (cfgs 0).N) (Proc.devRef .tc main_v17_0))
      (G5 (V m c main_v0) (V m c main_v3) (V m c main_v15) (V m c main_v16)) :=
    (Pipeline.withArrays_arr spec0 launch0.win.arr_inj c _ _ 5).trans (final5 m c)
  unfold Pipeline.afterTail₀
  show StableHlo.after hostOps1 _ (Proc.devRef .tc main_v18) = _
  after_results
  exact congrArg (fun A : S32768x1024.Idx → EReal => shapeCast S8x4096x1024 A shapeCasts_S32768x1024_S8x4096x1024) e

theorem tail20 (c : Dev nD) : @Eq (S8x4096x9.Idx → EReal) (Pipeline.afterTail₀ cfgs (dats m) 0 (V0 m) [hostOps1] c main_v20)
    (shapeCast S8x4096x9 (extractStridedSlice S32768x9 ![0, 0] (G6 (V m c main_v0) (V m c main_v3) (V m c main_v15) (V m c main_v16) (V m c main_v14)) slices_S32768x128_S32768x9_0_0)
      shapeCasts_S32768x9_S8x4096x9) := by
  have e : @Eq (S32768x128.Idx → EReal)
      (Pipeline.withArrays (cfgs 0).spec c (V0 m c) (fun w => (dats m 0 c).arrAt w (cfgs 0).N) (Proc.devRef .tc main_v17_1))
      (G6 (V m c main_v0) (V m c main_v3) (V m c main_v15) (V m c main_v16) (V m c main_v14)) :=
    (Pipeline.withArrays_arr spec0 launch0.win.arr_inj c _ _ 6).trans (final6 m c)
  unfold Pipeline.afterTail₀
  show StableHlo.after hostOps1 _ (Proc.devRef .tc main_v20) = _
  after_results
  exact congrArg (fun A : S32768x128.Idx → EReal => shapeCast S8x4096x9
    (extractStridedSlice S32768x9 ![0, 0] A slices_S32768x128_S32768x9_0_0) shapeCasts_S32768x9_S8x4096x9) e

/-! ## The staged arrays in terms of the arguments -/

/-- Row 4096·b + s of the kernel's normalized activations is the reference's normalized row (b, s). -/
theorem znK_eq (c : Dev nD) (b : Fin 8) (s : Fin 4096) (hr : b.val * 4096 + s.val < 32768) (o : Fin 1024) :
    znK (V m c main_v0) (V m c main_v3) (V m c main_v15) (V m c main_v16) ⟨b.val * 4096 + s.val, hr⟩ o = znrow (arg0 m c) (arg1 m c) (arg2 m c) (arg3 m c) (arg4 m c) b s o := by
  have e0 : ∀ k : Fin 1024, (V m c main_v0 : S32768x1024.Idx → EReal) (ix2 (⟨b.val * 4096 + s.val, hr⟩ : Fin 32768) k)
      = arg0 m c (ix3 b s k) := fun k => by
    rw [V_v0_apply]
    refine congrArg (arg0 m c) (funext fun a => Fin.ext ?_)
    match a with
    | ⟨0, _⟩ => show (b.val * 4096 + s.val) / 4096 = b.val; have := s.isLt; omega
    | ⟨1, _⟩ => show (b.val * 4096 + s.val) % 4096 = s.val; have := s.isLt; omega
    | ⟨2, _⟩ => rfl
  have e3 : ∀ k o : Fin 1024, (V m c main_v3 : S1024x1024.Idx → EReal) (ix2 k o) = arg1 m c (ix2 o k) * arg2 m c (ix2 o k) :=
    fun k o => V_v3_apply m c k o
  have e15 : ∀ o : Fin 1024, (V m c main_v15 : S1x1024.Idx → EReal) (ix2 (0 : Fin 1) o) = arg3 m c (ix1 o) :=
    fun o => V_v15_apply m c 0 o
  have e16 : ∀ o : Fin 1024, (V m c main_v16 : S1x1024.Idx → EReal) (ix2 (0 : Fin 1) o) = arg4 m c (ix1 o) :=
    fun o => V_v16_apply m c 0 o
  unfold znK znrow zrow
  simp only [e0, e3, e15, e16]

/-- Entry (4096·b + s, k) of the kernel's padded logits, k < 9, is the reference's logit (b, s, k). -/
theorem lgK_eq (c : Dev nD) (b : Fin 8) (s : Fin 4096) (hr : b.val * 4096 + s.val < 32768) (k : Fin 9) :
    lgK (V m c main_v0) (V m c main_v3) (V m c main_v15) (V m c main_v16) (V m c main_v14) ⟨b.val * 4096 + s.val, hr⟩ (⟨k.val, by omega⟩ : Fin 128)
      = logit (znrow (arg0 m c) (arg1 m c) (arg2 m c) (arg3 m c) (arg4 m c) b s) (fun d => unit (proto (arg5 m c) k) d) := by
  unfold lgK
  rw [show znK (V m c main_v0) (V m c main_v3) (V m c main_v15) (V m c main_v16) ⟨b.val * 4096 + s.val, hr⟩ = znrow (arg0 m c) (arg1 m c) (arg2 m c) (arg3 m c) (arg4 m c) b s from funext (znK_eq m c b s hr)]
  have e14 : ∀ d : Fin 1024, (V m c main_v14 : S1024x128.Idx → EReal) (ix2 d (⟨k.val, by omega⟩ : Fin 128))
      = unit (proto (arg5 m c) k) d := fun d => V_v14_apply m c d k
  simp only [e14]

/-! ## The two results -/

theorem res18_eq (c : Dev nD) : @Eq (S8x4096x1024.Idx → EReal) (Pipeline.afterTail₀ cfgs (dats m) 0 (V0 m) [hostOps1] c main_v18)
    (val_main_v25 (F := Ideal) (arg0 m c) (arg1 m c) (arg2 m c) (arg3 m c) (arg4 m c)) := by
  funext i
  obtain ⟨b, s, o, rfl⟩ : ∃ (b : Fin 8) (s : Fin 4096) (o : Fin 1024), i = ix3 b s o := ⟨i 0, i 1, i 2, eq_ix3 i⟩
  have hr : b.val * 4096 + s.val < 32768 := by have := b.isLt; have := s.isLt; omega
  rw [tail18, v25_at]
  refine (shapeCast_apply (G5 (V m c main_v0) (V m c main_v3) (V m c main_v15) (V m c main_v16)) _ (ix3 b s o) (ix2 (⟨b.val * 4096 + s.val, hr⟩ : Fin 32768) o) ?_).trans ?_
  · show (S32768x1024.rowMajor (ix2 (⟨b.val * 4096 + s.val, hr⟩ : Fin 32768) o)).val = (S8x4096x1024.rowMajor (ix3 b s o)).val
    rw [Shape.rowMajor_val_three, Shape.rowMajor_val_two]
    rfl
  · exact znK_eq m c b s hr o

theorem res20_eq (c : Dev nD) : @Eq (S8x4096x9.Idx → EReal) (Pipeline.afterTail₀ cfgs (dats m) 0 (V0 m) [hostOps1] c main_v20)
    (val_main_v39 (F := Ideal) (arg0 m c) (arg1 m c) (arg2 m c) (arg3 m c) (arg4 m c) (arg5 m c)) := by
  funext i
  obtain ⟨b, s, k, rfl⟩ : ∃ (b : Fin 8) (s : Fin 4096) (k : Fin 9), i = ix3 b s k := ⟨i 0, i 1, i 2, eq_ix3 i⟩
  have hr : b.val * 4096 + s.val < 32768 := by have := b.isLt; have := s.isLt; omega
  rw [tail20, v39_at]
  refine (shapeCast_apply _ _ (ix3 b s k) (ix2 (⟨b.val * 4096 + s.val, hr⟩ : Fin 32768) k) ?_).trans ?_
  · show (S32768x9.rowMajor (ix2 (⟨b.val * 4096 + s.val, hr⟩ : Fin 32768) k)).val = (S8x4096x9.rowMajor (ix3 b s k)).val
    rw [Shape.rowMajor_val_three, Shape.rowMajor_val_two]
    rfl
  · refine (extractStridedSlice_apply ![0, 0] (G6 (V m c main_v0) (V m c main_v3) (V m c main_v15) (V m c main_v16) (V m c main_v14)) slices_S32768x128_S32768x9_0_0
      (ix2 (⟨b.val * 4096 + s.val, hr⟩ : Fin 32768) k)
      (ix2 (⟨b.val * 4096 + s.val, hr⟩ : Fin 32768) (⟨k.val, by omega⟩ : Fin 128)) (fun a => ?_)).trans ?_
    · match a with
      | ⟨0, _⟩ => show b.val * 4096 + s.val = 0 + (b.val * 4096 + s.val); omega
      | ⟨1, _⟩ => show k.val = 0 + k.val; omega
    · exact lgK_eq m c b s hr k

/-! ## The run, read -/

/-- Every weakly fair execution of the idealized kernel program terminates with its two results at the reference's two
    functions of the arguments, and the arguments unchanged. -/
theorem run_value : θ_run defs (onTc (τ := τ) (main (F := Ideal))) ⟨m, fun _ => 0, ρ⟩ fun r => ∀ c : Dev nD,
      @Eq (S8x4096x9.Idx → EReal) (r.2.mem ((c.tc : Thread nD τ).loc main_v20)) (val_main_v39 (F := Ideal) (arg0 m c) (arg1 m c) (arg2 m c) (arg3 m c) (arg4 m c) (arg5 m c))
      ∧ @Eq (S8x4096x1024.Idx → EReal) (r.2.mem ((c.tc : Thread nD τ).loc main_v18)) (val_main_v25 (F := Ideal) (arg0 m c) (arg1 m c) (arg2 m c) (arg3 m c) (arg4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans (res20_eq m c),
      ((h c).2 main_v18 (Pipeline.mem_restRefs_of main_v18 (by decide) (by decide))).trans (res18_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.lean ====
/-
  A fused layer: activations h [8, 4096, 1024] times a masked weight, layer-normalized over the last axis, then compared
  by cosine similarity with the first nine prototypes and divided by a temperature. Two results: the logits
  [8, 4096, 9] and the normalized activations [8, 4096, 1024].

  The kernel flattens h to 32768 rows and handles 1024 rows per grid point; the reference works on the [8, 4096, ·]
  arrays directly. Over the extended reals both compute, for every row x on its own,
      z   = x · (W ∘ M)ᵀ,
      zn  = (z − mean z) · rsqrt (var z + ε₁) · γ + β,
      logit k = ⟨ zn / max (‖zn‖, ε₂) , p_k / max (‖p_k‖, ε₂) ⟩ / τ,
  with the same words for 1024, ε₁, ε₂ and τ, the same operations in the same order; they differ only in how the
  rows are laid out (row r = 4096·b + s), in the weight being transposed before the product, and in the prototypes'
  unit vectors being transposed and placed in the first nine of 128 zero columns, of which only those nine are kept.
  None of this needs the inputs to be finite: a finite sum over an index set re-indexed is the same sum, and every
  other step is the same operation on the same operands.

  The three frames are the programs' runs; the idealization rewrote nothing; the value claim sets the kernel's run
  (its two results at the reference's two functions of the arguments) beside the reference's run.
-/
import proofs.«175506_j69011534512402_2_alg».proof.Defs
import proofs.«175506_j69011534512402_2_alg».proof.Proof.Gen.Kernel
import proofs.«175506_j69011534512402_2_alg».proof.Proof.Gen.Kernel.Frame
import proofs.«175506_j69011534512402_2_alg».proof.Proof.Gen.KernelIdeal
import proofs.«175506_j69011534512402_2_alg».proof.Proof.Gen.KernelIdeal.Frame
import proofs.«175506_j69011534512402_2_alg».proof.Proof.Gen.ReferenceIdeal
import proofs.«175506_j69011534512402_2_alg».proof.Proof.Gen.ReferenceIdeal.Run
import proofs.«175506_j69011534512402_2_alg».proof.Proof.Gen.ReferenceIdeal.Read
import proofs.«175506_j69011534512402_2_alg».proof.Proof.Gen.Pre_finite_inputs
import proofs.«175506_j69011534512402_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference has no kernel: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization changed no operation of the kernel. -/
theorem preserves : Cert.preserves_Kernel_KernelIdeal := trivial

/-- Both programs end with the logits and the normalized activations at the same two functions of the arguments. -/
theorem algebraic : Cert.algebraic_KernelIdeal_ReferenceIdeal := by
  intro m ρ m' ρ' _ hagree
  refine ⟨fun c => Cert.ReferenceIdeal.Read.val_main_v39 (F := Ideal) (Cert.KernelIdeal.Hand.arg0 m c) (Cert.KernelIdeal.Hand.arg1 m c) (Cert.KernelIdeal.Hand.arg2 m c) (Cert.KernelIdeal.Hand.arg3 m c) (Cert.KernelIdeal.Hand.arg4 m c) (Cert.KernelIdeal.Hand.arg5 m c),
    fun c => Cert.ReferenceIdeal.Read.val_main_v25 (F := Ideal) (Cert.KernelIdeal.Hand.arg0 m c) (Cert.KernelIdeal.Hand.arg1 m c) (Cert.KernelIdeal.Hand.arg2 m c) (Cert.KernelIdeal.Hand.arg3 m c) (Cert.KernelIdeal.Hand.arg4 m c),
    Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v39_eq m' c)).trans ?_
    rw [(hagree c).1, (hagree c).2.1, (hagree c).2.2.1, (hagree c).2.2.2.1, (hagree c).2.2.2.2.1, (hagree c).2.2.2.2.2]
  · refine ((h c).2.1.trans (Cert.ReferenceIdeal.Read.val_main_v25_eq _ _ _ _ _)).trans ?_
    rw [(hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
